-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x768 : Shape := ⟨3, ![4, 512, 768]⟩
abbrev S4x128x512 : Shape := ⟨3, ![4, 128, 512]⟩
abbrev S_ : Shape := ⟨0, ![]⟩

class Facts : Prop where
  bcast_S_S4x512x768 : S_.BroadcastsInDim S4x512x768 (![] : Fin 0 → Fin S4x512x768.rank)
  reducesTo_S4x512x768_S_d0_1_2 : S4x512x768.ReducesTo [0, 1, 2] S_
  h_S_ : 0 < S_.numel

variable [Facts]

def fn {F : FTy → Type} [FloatOps F] (main_arg0 : FVec F S4x512x768 .f32) (main_arg1 : IVec S4x128x512 32) : IVec S_ 1 :=
  let main_v0 : FVec F S4x512x768 .f32 := Host.absf main_arg0
  let main_cst : FVec F S_ .f32 := constant S_ .f32 0x7F800000#32
  let main_v1 : FVec F S4x512x768 .f32 := broadcastInDim S4x512x768 ![] bcast_S_S4x512x768 main_cst
  let main_v2 : IVec S4x512x768 1 := cmpf .olt main_v0 main_v1
  let main_c : IVec S_ 1 := constantI S_ 1 1#1
  let main_v3 : IVec S_ 1 := (fun x v => Host.reduce IntOp.andi x v reducesTo_S4x512x768_S_d0_1_2 h_S_) main_v2 main_c
  main_v3
-- ==== Kernel.lean ====
abbrev S4x512x768 : Shape := ⟨3, ![4, 512, 768]⟩
abbrev S4x128x512 : Shape := ⟨3, ![4, 128, 512]⟩
abbrev S4x512x128 : Shape := ⟨3, ![4, 512, 128]⟩
abbrev S4x128x768 : Shape := ⟨3, ![4, 128, 768]⟩
abbrev S1x512x768 : Shape := ⟨3, ![1, 512, 768]⟩
abbrev S1x512x128 : Shape := ⟨3, ![1, 512, 128]⟩
abbrev S1x128x768 : Shape := ⟨3, ![1, 128, 768]⟩
abbrev S128x768 : Shape := ⟨2, ![128, 768]⟩
abbrev S512x128 : Shape := ⟨2, ![512, 128]⟩
abbrev S1x8x768 : Shape := ⟨3, ![1, 8, 768]⟩
abbrev S8x768 : Shape := ⟨2, ![8, 768]⟩
abbrev S8x128 : Shape := ⟨2, ![8, 128]⟩
abbrev S8x1x768 : Shape := ⟨3, ![8, 1, 768]⟩
abbrev S8x128x1 : Shape := ⟨3, ![8, 128, 1]⟩
abbrev S8x128x768 : Shape := ⟨3, ![8, 128, 768]⟩

abbrev nBuf : Space → Nat
  | .hbm => 4
  | .vmem => 8
  | .smem => 0
  | _ => 0

abbrev bufTy : (tb : Table) → Fin (tcTables nBuf tb) → BufTy
  | .hbm, ⟨0, _⟩ => ⟨S4x512x768, .f32⟩
  | .hbm, ⟨1, _⟩ => ⟨S4x128x512, .i32⟩
  | .hbm, ⟨2, _⟩ => ⟨S4x512x128, .i32⟩
  | .hbm, ⟨3, _⟩ => ⟨S4x128x768, .f32⟩
  | .local _ .vmem, ⟨0, _⟩ => ⟨S1x512x768, .f32⟩
  | .local _ .vmem, ⟨1, _⟩ => ⟨S1x512x768, .f32⟩
  | .local _ .vmem, ⟨2, _⟩ => ⟨S1x512x128, .i32⟩
  | .local _ .vmem, ⟨3, _⟩ => ⟨S1x512x128, .i32⟩
  | .local _ .vmem, ⟨4, _⟩ => ⟨S1x128x768, .f32⟩
  | .local _ .vmem, ⟨5, _⟩ => ⟨S1x128x768, .f32⟩
  | .local _ .vmem, ⟨6, _⟩ => ⟨S128x768, .f32⟩
  | .local _ .vmem, ⟨7, _⟩ => ⟨S512x128, .f32⟩
  | _, _ => ⟨S4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_8 : BitVec 32 := 0#32
  let c64_i32 : BitVec 32 := 64#32
  let v14 : BitVec 32 := Scalar.addi c0_i32_8 c64_i32
  let c1_i32 : BitVec 32 := 1#32
  ⟨c0_i32_8, v14, c1_i32⟩
def k0_mult1 (k0_t1 : Fin k0_t1_loop.trips) : BitVec 32 :=
  let c0_i32_16 : BitVec 32 := 0#32
  let c0_i32_8 : BitVec 32 := 0#32
  let c1_i32 : BitVec 32 := 1#32
  let arg6 : BitVec 32 := Scf.iv c0_i32_8 c1_i32 k0_t1
  let c1_i32_15 : BitVec 32 := 1#32
  let v19 : BitVec 32 := Scalar.muli arg6 c1_i32_15
  let v20 : BitVec 32 := Scalar.addi c0_i32_16 v19
  let c8_i32 : BitVec 32 := 8#32
  let v21 : BitVec 32 := Scalar.muli v20 c8_i32
  v21
def k0_off1 (k0_t1 : Fin k0_t1_loop.trips) : Fin 3 → Nat :=
  let c0_17 : Index := 0#32
  let c0_i32_16 : BitVec 32 := 0#32
  let c0_i32_8 : BitVec 32 := 0#32
  let c1_i32 : BitVec 32 := 1#32
  let arg6 : BitVec 32 := Scf.iv c0_i32_8 c1_i32 k0_t1
  let c1_i32_15 : BitVec 32 := 1#32
  let v19 : BitVec 32 := Scalar.muli arg6 c1_i32_15
  let v20 : BitVec 32 := Scalar.addi c0_i32_16 v19
  let c8_i32 : BitVec 32 := 8#32
  let v21 : BitVec 32 := Scalar.muli v20 c8_i32
  let v22 : BitVec 32 := v21
  let v23 : Index := Scalar.indexCast v22
  let c0_18 : Index := 0#32
  ![0, v23.toNat, 0]
def k0_off2 (k0_t1 : Fin k0_t1_loop.trips) : Fin 2 → Nat :=
  let c0_i32_16 : BitVec 32 := 0#32
  let c0_i32_8 : BitVec 32 := 0#32
  let c1_i32 : BitVec 32 := 1#32
  let arg6 : BitVec 32 := Scf.iv c0_i32_8 c1_i32 k0_t1
  let c1_i32_15 : BitVec 32 := 1#32
  let v19 : BitVec 32 := Scalar.muli arg6 c1_i32_15
  let v20 : BitVec 32 := Scalar.addi c0_i32_16 v19
  let c8_i32 : BitVec 32 := 8#32
  let v21 : BitVec 32 := Scalar.muli v20 c8_i32
  let v22 : BitVec 32 := v21
  let v26 : Index := Scalar.indexCast v22
  let c0_19 : Index := 0#32
  ![v26.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4x128x512_S4x512x128_0_2_1 : S4x128x512.Transposes [0, 2, 1] S4x512x128
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S1x8x768 : 0 < S1x8x768.numel
  shapeCasts_S1x8x768_S8x768 : S1x8x768.ShapeCasts S8x768
  h_S8x128 : 0 < S8x128.numel
  shapeCasts_S8x768_S8x1x768 : S8x768.ShapeCasts S8x1x768
  shapeCasts_S8x128_S8x128x1 : S8x128.ShapeCasts S8x128x1
  broadcasts_S8x1x768_S8x128x768 : S8x1x768.Broadcasts S8x128x768
  broadcasts_S8x128x1_S8x128x768 : S8x128x1.Broadcasts S8x128x768
  reduces_S8x128x768_S128x768 : S8x128x768.Reduces [0] S128x768
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  shapeCasts_S128x768_S1x128x768 : S128x768.ShapeCasts S1x128x768
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x8x768.size a ≤ S1x512x768.size a
  k0_off2_inb : ∀ k0_t1 : Fin k0_t1_loop.trips, ∀ a, (k0_off2 k0_t1) a + S8x128.size a ≤ S512x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S4x512x768.size a
  hwx0_0 : ∀ i : grid0.Coords, EltTy.bits .f32 = 32 ∨ (Rect.block (s := S4x512x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S4x512x128.size a
  hwx0_1 : ∀ i : grid0.Coords, EltTy.bits .i32 = 32 ∨ (Rect.block (s := S4x512x128) S1x512x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x768.size a ≤ S4x128x768.size a
  hwx0_2 : ∀ i : grid0.Coords, EltTy.bits .f32 = 32 ∨ (Rect.block (s := S4x128x768) S1x128x768.size (cc0_transform_2 i) (hinb0_2 i)).WholeWords (EltTy.packing .f32)

variable [Facts₀]

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x512x768 : Shape := ⟨3, ![4, 512, 768]⟩
abbrev S4x128x512 : Shape := ⟨3, ![4, 128, 512]⟩
abbrev S_ : Shape := ⟨0, ![]⟩
abbrev S4x1x512x768 : Shape := ⟨4, ![4, 1, 512, 768]⟩
abbrev S4x128x512x1 : Shape := ⟨4, ![4, 128, 512, 1]⟩
abbrev S4x128x512x768 : Shape := ⟨4, ![4, 128, 512, 768]⟩
abbrev S4x128x768 : Shape := ⟨3, ![4, 128, 768]⟩

abbrev nBuf : Space → Nat
  | .hbm => 16
  | .vmem => 0
  | .smem => 0
  | _ => 0

abbrev bufTy : (tb : Table) → Fin (tcTables nBuf tb) → BufTy
  | .hbm, ⟨0, _⟩ => ⟨S4x512x768, .f32⟩
  | .hbm, ⟨1, _⟩ => ⟨S4x128x512, .i32⟩
  | .hbm, ⟨2, _⟩ => ⟨S_, .i32⟩
  | .hbm, ⟨3, _⟩ => ⟨S4x128x512, .i32⟩
  | .hbm, ⟨4, _⟩ => ⟨S4x128x512, .i1⟩
  | .hbm, ⟨5, _⟩ => ⟨S4x128x512, .f32⟩
  | .hbm, ⟨6, _⟩ => ⟨S_, .f32⟩
  | .hbm, ⟨7, _⟩ => ⟨S4x128x512, .f32⟩
  | .hbm, ⟨8, _⟩ => ⟨S4x128x512, .f32⟩
  | .hbm, ⟨9, _⟩ => ⟨S4x1x512x768, .f32⟩
  | .hbm, ⟨10, _⟩ => ⟨S4x128x512x1, .f32⟩
  | .hbm, ⟨11, _⟩ => ⟨S4x128x512x768, .f32⟩
  | .hbm, ⟨12, _⟩ => ⟨S4x128x512x768, .f32⟩
  | .hbm, ⟨13, _⟩ => ⟨S4x128x512x768, .f32⟩
  | .hbm, ⟨14, _⟩ => ⟨S_, .f32⟩
  | .hbm, ⟨15, _⟩ => ⟨S4x128x768, .f32⟩
  | _, _ => ⟨S4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S4x128x512 : S_.BroadcastsInDim S4x128x512 (![] : Fin 0 → Fin S4x128x512.rank)
  bcast_S4x512x768_S4x1x512x768_0_2_3 : S4x512x768.BroadcastsInDim S4x1x512x768 (![0, 2, 3] : Fin 3 → Fin S4x1x512x768.rank)
  bcast_S4x128x512_S4x128x512x1_0_1_2 : S4x128x512.BroadcastsInDim S4x128x512x1 (![0, 1, 2] : Fin 3 → Fin S4x128x512x1.rank)
  bcast_S4x1x512x768_S4x128x512x768_0_1_2_3 : S4x1x512x768.BroadcastsInDim S4x128x512x768 (![0, 1, 2, 3] : Fin 4 → Fin S4x128x512x768.rank)
  bcast_S4x128x512x1_S4x128x512x768_0_1_2_3 : S4x128x512x1.BroadcastsInDim S4x128x512x768 (![0, 1, 2, 3] : Fin 4 → Fin S4x128x512x768.rank)
  reducesTo_S4x128x512x768_S4x128x768_d2 : S4x128x512x768.ReducesTo [2] S4x128x768
  h_S_ : 0 < S_.numel

variable [Facts₀]

class Facts : Prop extends Facts₀ where

variable [Facts]
-- ==== Proof.BodyValue.lean ====
/-
  What the kernel body leaves in its output block, as a function of its two input blocks.

  The body fills the running-maximum scratch with minus infinity, fills the penalty scratch from the mask block, and then
  makes 64 trips. Trip k reads rows 8k .. 8k+7 of the token block and of the penalty scratch, reads the running maximum,
  and stores back the larger of the running maximum and the maximum of the eight rows' sums. After the last trip the
  running maximum is copied to the output block. So the output is the 64-fold iterate of one step, started from the
  minus-infinity fill: the recursion `accAfter` below, stated for any float instance.
-/
import proofs.«149676_j73598559584945_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The running maximum after `k` trips, from the token block `x0` and the mask block `x1`: the minus-infinity fill,
    then one step per trip on that trip's eight rows. -/
def accAfter (x0 : Vec F S1x512x768 .f32) (x1 : Vec F S1x512x128 .i32) : ℕ → Vec F S128x768 .f32
  | 0 => k0_pay1
  | k + 1 =>
    if h : k < k0_t1_loop.trips then
      k0_pay3 (View.ld x0 (Rect.unit (s := S1x512x768) (k0_off1 ⟨k, h⟩) S1x8x768.size (k0_off1_inb ⟨k, h⟩)))
        (View.ld (k0_pay2 x1) (Rect.unit (s := S512x128) (k0_off2 ⟨k, h⟩) S8x128.size (k0_off2_inb ⟨k, h⟩)))
        (accAfter x0 x1 k)
    else accAfter x0 x1 k

/-- A store through a whole block leaves its payload, whatever was there. -/
theorem read_writes_whole {sig : RefSig} {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  subst h
  rw [View.read_writes_eq_canon _ _ _ (fun y => ⟨_, List.mem_singleton_self _, by
    show y ∈ (Rect.whole S).set; rw [Rect.set_whole]; exact Finset.mem_univ y⟩), View.canon_unit_zero rfl]

/-- One trip's stores: a single store of the whole running-maximum block, its value the step applied to the trip's
    rows and to the running maximum as the trip finds it. -/
theorem tripL_eq (𝒱 : Variants) (c : Dev nD) (bd : Option 𝒱.V) (i : grid0.Coords)
    (a1 : Memref sig .tc .vmem S1x512x768 .f32) (h1 : a1.IsWhole) (a2 : Memref sig .tc .vmem S1x512x128 .i32) (h2 : a2.IsWhole)
    (a3 : Memref sig .tc .vmem S1x128x768 .f32) (h3 : a3.IsWhole) (a4 : Memref sig .tc .vmem S128x768 .f32) (h4 : a4.IsWhole)
    (a5 : Memref sig .tc .vmem S512x128 .f32) (h5 : a5.IsWhole)
    (X1 : BufTy.Contents (Elt F) a1.view.ty) (X5 : BufTy.Contents (Elt F) a5.view.ty) (k : Fin k0_t1_loop.trips)
    (f : BufTy.Contents (Elt F) a4.view.ty) :
    tripL_k0_t1 (F := F) 𝒱 c bd i a1 h1 a2 h2 a3 h3 a4 h4 a5 h5 X1 X5 k f
      = [(⟨Rect.unit (s := S128x768) ![0, 0] S128x768.size inb_S128x768_S128x768_0_0,
          k0_pay3 (View.readAt (Elt F) a1.view (Rect.unit (s := S1x512x768) (k0_off1 k) S1x8x768.size (k0_off1_inb k)).toLoadRect X1)
            (View.readAt (Elt F) a5.view (Rect.unit (s := S512x128) (k0_off2 k) S8x128.size (k0_off2_inb k)).toLoadRect X5)
            (View.readAt (Elt F) a4.view (Rect.unit (s := S128x768) ![0, 0] S128x768.size inb_S128x768_S128x768_0_0).toLoadRect f)⟩ :
          View.Piece (Elt F) S128x768 .f32)] := by
  unfold tripL_k0_t1 trip_k0_t1
  rfl

/-- After `k` trips the running-maximum scratch reads `accAfter k`: by induction on the trips, each trip storing the
    step of what the trips before left. -/
theorem read_after_trips (c : Dev nD) (i : grid0.Coords)
    (a1 : Memref sig .tc .vmem S1x512x768 .f32) (h1 : a1.IsWhole) (a2 : Memref sig .tc .vmem S1x512x128 .i32) (h2 : a2.IsWhole)
    (a3 : Memref sig .tc .vmem S1x128x768 .f32) (h3 : a3.IsWhole) (a4 : Memref sig .tc .vmem S128x768 .f32) (h4 : a4.IsWhole)
    (a5 : Memref sig .tc .vmem S512x128 .f32) (h5 : a5.IsWhole)
    (x0 : Vec F S1x512x768 .f32) (x1 : Vec F S1x512x128 .i32)
    (X5 : BufTy.Contents (Elt F) a5.view.ty) (hX5 : a5.view.read (Elt F) X5 = k0_pay2 x1)
    (G4 : BufTy.Contents (Elt F) a4.view.ty) (hG4 : a4.view.read (Elt F) G4 = k0_pay1) :
    ∀ k, k ≤ k0_t1_loop.trips →
      a4.view.read (Elt F) (a4.view.writes (Elt F) G4
        (pb_k0_t1 (F := F) Variants.none c none i a1 h1 a2 h2 a3 h3 a4 h4 a5 h5 (h1.unread x0) X5 G4 k))
      = accAfter x0 x1 k := by
  intro k
  induction k with
  | zero =>
    intro _
    rw [pb_k0_t1.eq_1, View.writes_nil, accAfter.eq_1]
    exact hG4
  | succ k ih =>
    intro hk
    have hk' : k < k0_t1_loop.trips := hk
    have e : pb_k0_t1 (F := F) Variants.none c none i a1 h1 a2 h2 a3 h3 a4 h4 a5 h5 (h1.unread x0) X5 G4 (k + 1)
        = tripL_k0_t1 (F := F) Variants.none c none i a1 h1 a2 h2 a3 h3 a4 h4 a5 h5 (h1.unread x0) X5 ⟨k, hk'⟩
            (a4.view.writes (Elt F) G4 (pb_k0_t1 (F := F) Variants.none c none i a1 h1 a2 h2 a3 h3 a4 h4 a5 h5 (h1.unread x0) X5 G4 k))
          ++ pb_k0_t1 (F := F) Variants.none c none i a1 h1 a2 h2 a3 h3 a4 h4 a5 h5 (h1.unread x0) X5 G4 k :=
      pb_k0_t1_succ (F := F) Variants.none c none i a1 h1 a2 h2 a3 h3 a4 h4 a5 h5 (h1.unread x0) X5 G4 ⟨k, hk'⟩
    rw [e, View.writes_append, tripL_eq, read_writes_whole _ _ hz2]
    simp only [View.readAt_eq_ld, h1.read_unread, hX5, ih (Nat.le_of_lt hk'), View.ld_unit_zero (S := S128x768) hz2]
    rw [accAfter, dif_pos hk']

/-- The body's output block: the running maximum after all the trips, with a leading unit axis added. -/
theorem out_eq (c : Dev nD) (i : grid0.Coords)
    (a1 : Memref sig .tc .vmem S1x512x768 .f32) (h1 : a1.IsWhole) (a2 : Memref sig .tc .vmem S1x512x128 .i32) (h2 : a2.IsWhole)
    (a3 : Memref sig .tc .vmem S1x128x768 .f32) (h3 : a3.IsWhole) (a4 : Memref sig .tc .vmem S128x768 .f32) (h4 : a4.IsWhole)
    (a5 : Memref sig .tc .vmem S512x128 .f32) (h5 : a5.IsWhole)
    (x0 : Vec F S1x512x768 .f32) (x1 : Vec F S1x512x128 .i32) :
    out0_A_2 c i a1 h1 a2 h2 a3 h3 a4 h4 a5 h5 x0 x1 = k0_pay4 (accAfter x0 x1 k0_t1_loop.trips) := by
  unfold out0_A_2
  rw [View.read_writes_eq_canon _ _ _ (cover0_A_2 c i a1 h1 a2 h2 a3 h3 a4 h4 a5 h5 x0 x1)]
  unfold kernelRun0_A
  dsimp only
  sl_unfold_words
  rw [View.canon_unit_zero hz3, View.writes_append]
  refine congrArg k0_pay4 ?_
  rw [View.readAt_eq_ld]
  have hX5 : a5.view.read (Elt F) (a5.view.writes (Elt F) a5.view.junk
      [(⟨Rect.unit (s := S512x128) ![0, 0] S512x128.size inb_S512x128_S512x128_0_0,
        k0_pay2 (View.readAt (Elt F) a2.view (Rect.unit (s := S1x512x128) ![0, 0, 0] S1x512x128.size inb_S1x512x128_S1x512x128_0_0_0).toLoadRect (h2.unread x1))⟩ :
        View.Piece (Elt F) S512x128 .f32)]) = k0_pay2 x1 := by
    rw [read_writes_whole _ _ hz2, View.readAt_eq_ld, h2.read_unread, View.ld_unit_zero (S := S1x512x128) hz3]
  have hG4 : a4.view.read (Elt F) (a4.view.writes (Elt F) a4.view.junk
      [(⟨Rect.unit (s := S128x768) ![0, 0] S128x768.size inb_S128x768_S128x768_0_0, k0_pay1⟩ : View.Piece (Elt F) S128x768 .f32)]) = k0_pay1 :=
    read_writes_whole _ _ hz2 _ _
  have := read_after_trips c i a1 h1 a2 h2 a3 h3 a4 h4 a5 h5 x0 x1 _ hX5 _ hG4 k0_t1_loop.trips le_rfl
  rw [View.ld_unit_zero (S := S128x768) hz2]
  exact this

end Cert.KernelIdeal.BodyValue

end
-- ==== Proof.Spec.lean ====
/-
  The result both programs compute, as one function of the two argument arrays.

  For a batch b, a mention m and a feature d, the result is the largest, over the 512 token positions l, of
  h[b, l, d] plus a penalty: a fixed large negative number where mask[b, m, l] is zero, and zero elsewhere.
  The maximum is taken in the extended reals and starts from minus infinity. The three float words (minus infinity, the
  large negative number, zero) are kept as words: both programs use the same ones, so they are never evaluated.
-/
import Idealize.ShloMosaic.PureOps.Ideal
import Idealize.ShloMosaic.Lib.ValueIdx

noncomputable section

namespace Cert.MaskedMax

open Idealize.ShloMosaic Idealize.ShloMosaic.ValueIdx

/-- The value every maximum starts from: the float word of minus infinity. -/
abbrev negInf : EReal := Ideal.ofBits .f32 0xFF800000#32

/-- The penalty of one mask word: the large negative number where the word is zero, the float zero elsewhere. -/
def penalty (w : BitVec 32) : EReal :=
  if w = 0#32 then Ideal.ofBits .f32 0xF149F2CA#32 else Ideal.ofBits .f32 0x00000000#32

/-- The result at batch `b`, mention `m`, feature `d`: the maximum over the token positions. -/
def resultAt (h : (⟨3, ![4, 512, 768]⟩ : Shape).Idx → EReal) (mk : (⟨3, ![4, 128, 512]⟩ : Shape).Idx → BitVec 32)
    (b : Fin 4) (m : Fin 128) (d : Fin 768) : EReal :=
  Finset.univ.fold max negInf (fun l : Fin 512 => h (ix3 b l d) + penalty (mk (ix3 b m l)))

/-- The whole result array. -/
def result (h : (⟨3, ![4, 512, 768]⟩ : Shape).Idx → EReal) (mk : (⟨3, ![4, 128, 512]⟩ : Shape).Idx → BitVec 32) :
    (⟨3, ![4, 128, 768]⟩ : Shape).Idx → EReal :=
  fun j => resultAt h mk (j 0) (j 1) (j 2)

theorem result_ix3 (h : (⟨3, ![4, 512, 768]⟩ : Shape).Idx → EReal) (mk : (⟨3, ![4, 128, 512]⟩ : Shape).Idx → BitVec 32)
    (b : Fin 4) (m : Fin 128) (d : Fin 768) : result h mk (ix3 b m d) = resultAt h mk b m d := rfl

end Cert.MaskedMax

end
-- ==== Proof.LibMaxChunks.lean ====
/-
  A running maximum taken chunk by chunk, on any linear order.

  A family `g` indexed by the naturals is cut into consecutive chunks of `c` positions. Start from a value `b`; for each
  chunk in turn replace the running value by its maximum with the chunk's own maximum (itself started from `b`). After
  `N` chunks the running value is the maximum of `b` and of `g` over the first `c * N` positions.

  Reason: a value is above the running maximum exactly when it is above `b` and above `g l` for every `l < c * n`,
  because such an `l` is either among the first `c * (n - 1)` positions or sits in the last chunk at offset
  `l - c * (n - 1)`. Two elements of a linear order with the same upper bounds are equal.
-/
import Mathlib.Data.Finset.Fold
import Mathlib.Order.Lattice
import Mathlib.Data.Fintype.Basic
import Mathlib.Tactic

namespace LibMaxChunks

variable {α : Type} [LinearOrder α]

/-- The upper bounds of the running maximum after `n` chunks: those of `b` and of the first `c * n` members. -/
theorem chunked_max_le_iff (c N : ℕ) (b : α) (g : ℕ → α) (acc : ℕ → α) (h0 : acc 0 = b)
    (hs : ∀ k, k < N → acc (k + 1) = max (acc k) (Finset.univ.fold max b (fun r : Fin c => g (c * k + r.val)))) :
    ∀ n, n ≤ N → ∀ x, acc n ≤ x ↔ b ≤ x ∧ ∀ l, l < c * n → g l ≤ x := by
  intro n
  induction n with
  | zero =>
    intro _ x
    rw [h0]
    exact ⟨fun h => ⟨h, fun l hl => absurd hl (by omega)⟩, fun h => h.1⟩
  | succ n ih =>
    intro hn x
    rw [hs n (by omega), max_le_iff, ih (by omega) x, Finset.fold_max_le]
    constructor
    · rintro ⟨⟨hb, hl⟩, -, hr⟩
      refine ⟨hb, fun l hlt => ?_⟩
      by_cases h : l < c * n
      · exact hl l h
      · have hc : l - c * n < c := by rw [Nat.mul_succ] at hlt; omega
        have e := hr ⟨l - c * n, hc⟩ (Finset.mem_univ _)
        have hl' : c * n + (l - c * n) = l := by omega
        rw [show c * n + (⟨l - c * n, hc⟩ : Fin c).val = l from hl'] at e
        exact e
    · rintro ⟨hb, hl⟩
      refine ⟨⟨hb, fun l h => hl l (by rw [Nat.mul_succ]; omega)⟩, hb, fun r _ => hl _ ?_⟩
      have := r.isLt
      rw [Nat.mul_succ]; omega

/-- After all `N` chunks the running maximum is the maximum, started from `b`, over all `M = c * N` positions. -/
theorem chunked_max_eq_fold (c N M : ℕ) (hM : M = c * N) (b : α) (g : ℕ → α) (acc : ℕ → α) (h0 : acc 0 = b)
    (hs : ∀ k, k < N → acc (k + 1) = max (acc k) (Finset.univ.fold max b (fun r : Fin c => g (c * k + r.val)))) :
    acc N = Finset.univ.fold max b (fun l : Fin M => g l.val) := by
  subst hM
  apply eq_of_forall_ge_iff
  intro x
  rw [chunked_max_le_iff c N b g acc h0 hs N le_rfl x, Finset.fold_max_le]
  constructor
  · rintro ⟨hb, hl⟩; exact ⟨hb, fun l _ => hl l.val l.isLt⟩
  · rintro ⟨hb, hl⟩; exact ⟨hb, fun l h => hl ⟨l, h⟩ (Finset.mem_univ _)⟩

end LibMaxChunks
-- ==== Proof.BodyIdeal.lean ====
/-
  The body's output block over the extended reals, entry by entry.

  One trip's step at (m, d) is the larger of the running maximum there and the maximum over the trip's eight rows r of
  token[8k + r, d] + penalty[8k + r, m]: the token rows are spread along the mention axis and the penalty rows along the
  feature axis before they are added, and the row maximum starts from minus infinity. The penalty scratch at (l, m) is
  the penalty of the mask word at (l, m). Folding 64 such chunk maxima into minus infinity gives the maximum over all
  512 rows (the chunked-maximum law).
-/
import proofs.«149676_j73598559584945_2_alg».proof.Proof.BodyValue
import proofs.«149676_j73598559584945_2_alg».proof.Proof.Spec
import proofs.«149676_j73598559584945_2_alg».proof.Proof.LibMaxChunks
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine

noncomputable section

open Idealize.ShloMosaic Idealize.ShloMosaic.TcCoe Idealize.SL.Sem

namespace Cert.KernelIdeal.BodyIdeal

open Cert.KernelIdeal Cert.KernelIdeal.Gen Cert.KernelIdeal.BodyValue Cert.MaskedMax Idealize.ShloMosaic.ValueIdx

/-- The loop makes 64 trips. -/
theorem trips_eq : k0_t1_loop.trips = 64 := by decide

/-- The eight token rows spread along the mention axis: at (r, m, d) the row block at (0, r, d). -/
theorem rows_apply (v24 : Vec Ideal S1x8x768 .f32) (r : Fin 8) (m : Fin 128) (d : Fin 768) :
    broadcastTo S8x128x768 (shapeCast S8x1x768 (shapeCast S8x768 v24 shapeCasts_S1x8x768_S8x768) shapeCasts_S8x768_S8x1x768)
      broadcasts_S8x1x768_S8x128x768 (ix3 r m d) = v24 (ix3 (0 : Fin 1) r d) := by
  refine (broadcastTo_apply _ _ (ix3 r m d) (ix3 r (0 : Fin 1) d) (fun a => ?_)).trans ?_
  · match a with
    | ⟨0, _⟩ => rfl
    | ⟨1, _⟩ => rfl
    | ⟨2, _⟩ => rfl
  refine (shapeCast_apply _ _ (ix3 r (0 : Fin 1) d) (ix2 r d) ?_).trans ?_
  · rw [Shape.rowMajor_val_two, Shape.rowMajor_val_three]
    show r.val * 768 + d.val = (r.val * 1 + 0) * 768 + d.val
    omega
  exact shapeCast_1ab_ab_apply v24 _ r d

/-- The eight penalty rows spread along the feature axis: at (r, m, d) the penalty block at (r, m). -/
theorem pens_apply (v27 : Vec Ideal S8x128 .f32) (r : Fin 8) (m : Fin 128) (d : Fin 768) :
    broadcastTo S8x128x768 (shapeCast S8x128x1 v27 shapeCasts_S8x128_S8x128x1) broadcasts_S8x128x1_S8x128x768 (ix3 r m d)
      = v27 (ix2 r m) := by
  refine (broadcastTo_apply _ _ (ix3 r m d) (ix3 r m (0 : Fin 1)) (fun a => ?_)).trans ?_
  · match a with
    | ⟨0, _⟩ => rfl
    | ⟨1, _⟩ => rfl
    | ⟨2, _⟩ => rfl
  exact shapeCast_apply _ _ (ix3 r m (0 : Fin 1)) (ix2 r m) (by
    rw [Shape.rowMajor_val_two, Shape.rowMajor_val_three]
    show r.val * 128 + m.val = (r.val * 128 + m.val) * 1 + 0
    omega)

/-- One trip's step at (m, d). -/
theorem step_apply (v24 : Vec Ideal S1x8x768 .f32) (v27 : Vec Ideal S8x128 .f32) (acc : Vec Ideal S128x768 .f32)
    (m : Fin 128) (d : Fin 768) :
    k0_pay3 (F := Ideal) v24 v27 acc (ix2 m d)
      = max (acc (ix2 m d)) (Finset.univ.fold max negInf (fun r : Fin 8 => v24 (ix3 (0 : Fin 1) r d) + v27 (ix2 r m))) := by
  unfold k0_pay3
  refine (congrFun (shapeCast_self _ _) (ix2 m d)).trans ?_
  refine congrArg (max (acc (ix2 m d))) ?_
  refine (Ideal.multiReduction_maximumf_single _ _ reduces_S8x128x768_S128x768 _ _ (ix2 m d)).trans ?_
  refine congrArg (Finset.univ.fold max _) (funext fun (r : Fin 8) => ?_)
  have hl : reduces_S8x128x768_S128x768.lift (ix2 m d) r = ix3 r m d := by
    funext a; apply Fin.ext
    match a with
    | ⟨0, _⟩ => rfl
    | ⟨1, _⟩ => rfl
    | ⟨2, _⟩ => rfl
  show addf _ _ (reduces_S8x128x768_S128x768.lift (ix2 m d) r) = _
  rw [hl]
  exact congrArg₂ (· + ·) (rows_apply v24 r m d) (pens_apply v27 r m d)

/-- The penalty scratch at (l, m): the penalty of the mask block's word at (0, l, m). -/
theorem pen_apply (x1 : Vec Ideal S1x512x128 .i32) (l : Fin 512) (m : Fin 128) :
    k0_pay2 (F := Ideal) x1 (ix2 l m) = penalty (x1 (ix3 (0 : Fin 1) l m)) := by
  unfold k0_pay2 penalty
  refine (congrFun (shapeCast_self _ _) (ix2 l m)).trans ?_
  show Scalar.select (IntOp.cmpi .eq (shapeCast S512x128 x1 shapeCasts_S1x512x128_S512x128 (ix2 l m)) 0#32) _ _ = _
  rw [shapeCast_1ab_ab_apply x1 _ l m]
  by_cases hw : x1 (ix3 (0 : Fin 1) l m) = 0#32
  · rw [if_pos hw, (IntOp.cmpi_eq).2 hw, select_one]; rfl
  · have h0 : IntOp.cmpi .eq (x1 (ix3 (0 : Fin 1) l m)) 0#32 = 0#1 := by
      have h := (IntOp.cmpi_eq (x := x1 (ix3 (0 : Fin 1) l m)) (y := 0#32)).not.2 hw
      generalize IntOp.cmpi .eq (x1 (ix3 (0 : Fin 1) l m)) 0#32 = c at h
      revert h; revert c; decide
    rw [if_neg hw, h0, select_zero]; rfl

/-- Trip k's token rows: row r of the chunk is row 8k + r of the token block. -/
theorem tokRows_apply (x0 : Vec Ideal S1x512x768 .f32) (k : Fin k0_t1_loop.trips) (r : Fin 8) (d : Fin 768)
    (hl : 8 * k.val + r.val < 512) :
    View.ld x0 (Rect.unit (s := S1x512x768) (k0_off1 k) S1x8x768.size (k0_off1_inb k)) (ix3 (0 : Fin 1) r d)
      = x0 (ix3 (0 : Fin 1) ⟨8 * k.val + r.val, hl⟩ d) := by
  refine congrArg x0 (funext fun a => Fin.ext ?_)
  match a with
  | ⟨0, _⟩ => show k0_off1 k 0 + 1 * 0 = 0; rw [k0_off1_eq]; rfl
  | ⟨1, _⟩ => show k0_off1 k 1 + 1 * r.val = 8 * k.val + r.val; rw [k0_off1_eq]; show 8 * k.val + 1 * r.val = _; omega
  | ⟨2, _⟩ => show k0_off1 k 2 + 1 * d.val = d.val; rw [k0_off1_eq]; show 0 + 1 * d.val = _; omega

/-- Trip k's penalty rows likewise. -/
theorem penRows_apply (y : Vec Ideal S512x128 .f32) (k : Fin k0_t1_loop.trips) (r : Fin 8) (m : Fin 128)
    (hl : 8 * k.val + r.val < 512) :
    View.ld y (Rect.unit (s := S512x128) (k0_off2 k) S8x128.size (k0_off2_inb k)) (ix2 r m)
      = y (ix2 ⟨8 * k.val + r.val, hl⟩ m) := by
  refine congrArg y (funext fun a => Fin.ext ?_)
  match a with
  | ⟨0, _⟩ => show k0_off2 k 0 + 1 * r.val = 8 * k.val + r.val; rw [k0_off2_eq]; show 8 * k.val + 1 * r.val = _; omega
  | ⟨1, _⟩ => show k0_off2 k 1 + 1 * m.val = m.val; rw [k0_off2_eq]; show 0 + 1 * m.val = _; omega

/-- The running maximum after all the trips, at (m, d): the maximum over the 512 rows. -/
theorem acc_apply (x0 : Vec Ideal S1x512x768 .f32) (x1 : Vec Ideal S1x512x128 .i32) (m : Fin 128) (d : Fin 768) :
    accAfter (F := Ideal) x0 x1 k0_t1_loop.trips (ix2 m d)
      = Finset.univ.fold max negInf
          (fun l : Fin 512 => x0 (ix3 (0 : Fin 1) l d) + penalty (x1 (ix3 (0 : Fin 1) l m))) := by
  let g : ℕ → EReal := fun l =>
    if h : l < 512 then x0 (ix3 (0 : Fin 1) ⟨l, h⟩ d) + penalty (x1 (ix3 (0 : Fin 1) ⟨l, h⟩ m)) else negInf
  have h0 : accAfter (F := Ideal) x0 x1 0 (ix2 m d) = negInf := by
    rw [accAfter.eq_1]
    unfold k0_pay1
    exact congrFun (shapeCast_self _ _) (ix2 m d)
  have hs : ∀ k, k < 64 → accAfter (F := Ideal) x0 x1 (k + 1) (ix2 m d)
      = max (accAfter (F := Ideal) x0 x1 k (ix2 m d)) (Finset.univ.fold max negInf (fun r : Fin 8 => g (8 * k + r.val))) := by
    intro k hk
    have hk' : k < k0_t1_loop.trips := by rw [trips_eq]; exact hk
    rw [accAfter.eq_2, dif_pos hk', step_apply]
    refine congrArg (max _) (congrArg (Finset.univ.fold max _) (funext fun (r : Fin 8) => ?_))
    have hl : 8 * k + r.val < 512 := by have := r.isLt; omega
    show _ = g (8 * k + r.val)
    have hg : g (8 * k + r.val) = x0 (ix3 (0 : Fin 1) ⟨8 * k + r.val, hl⟩ d) + penalty (x1 (ix3 (0 : Fin 1) ⟨8 * k + r.val, hl⟩ m)) :=
      dif_pos hl
    rw [hg, tokRows_apply x0 ⟨k, hk'⟩ r d hl, penRows_apply (k0_pay2 x1) ⟨k, hk'⟩ r m hl, pen_apply]
  have key := LibMaxChunks.chunked_max_eq_fold 8 64 512 rfl negInf g (fun k => accAfter (F := Ideal) x0 x1 k (ix2 m d)) h0 hs
  rw [trips_eq]
  refine key.trans (congrArg (Finset.univ.fold max _) (funext fun l => ?_))
  exact dif_pos l.isLt

/-- The body's output block at (0, m, d). -/
theorem out_apply (c : Dev nD) (i : grid0.Coords)
    (a1 : Memref sig .tc .vmem S1x512x768 .f32) (h1 : a1.IsWhole) (a2 : Memref sig .tc .vmem S1x512x128 .i32) (h2 : a2.IsWhole)
    (a3 : Memref sig .tc .vmem S1x128x768 .f32) (h3 : a3.IsWhole) (a4 : Memref sig .tc .vmem S128x768 .f32) (h4 : a4.IsWhole)
    (a5 : Memref sig .tc .vmem S512x128 .f32) (h5 : a5.IsWhole)
    (x0 : Vec Ideal S1x512x768 .f32) (x1 : Vec Ideal S1x512x128 .i32) (u : Fin 1) (m : Fin 128) (d : Fin 768) :
    out0_A_2 (F := Ideal) c i a1 h1 a2 h2 a3 h3 a4 h4 a5 h5 x0 x1 (ix3 u m d)
      = Finset.univ.fold max negInf
          (fun l : Fin 512 => x0 (ix3 (0 : Fin 1) l d) + penalty (x1 (ix3 (0 : Fin 1) l m))) := by
  rw [out_eq]
  unfold k0_pay4
  rw [shapeCast_ab_1ab_apply _ _ u m d]
  exact acc_apply x0 x1 m d

end Cert.KernelIdeal.BodyIdeal

end
-- ==== Proof.KernelValue.lean ====
/-
  The kernel's result array is the specified function of its two arguments.

  The call runs on a grid of four points, one per batch. Point t stages row t of the token array and row t of the mask
  array transposed (positions by mentions; the transpose is done before the call), and writes row t of the result. The
  body's output block at (0, m, d) is the maximum over l of token[t, l, d] + penalty(maskT[t, l, m]), and
  maskT[t, l, m] = mask[t, m, l]: that is block t of the specified result. The four blocks tile the result array.
-/
import proofs.«149676_j73598559584945_2_alg».proof.Proof.BodyIdeal
import proofs.«149676_j73598559584945_2_alg».proof.Proof.Gen.KernelIdeal.Value
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.BodyValue Cert.KernelIdeal.BodyIdeal Cert.MaskedMax
open Idealize.ShloMosaic.ValueIdx

variable (m : (ℓ : Loc nD τ sig) → Buf (Elt Ideal) ℓ) (ρ : Dev nD → PrngReg)

/-- Every window's block index at point t is (t, 0, 0): decided over the four points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The body's output block, entry by entry, when its token block is row b of an array H and its mask block is row b of
    the transpose of an array MK: row b of the specified result of H and MK. -/
theorem out_block (c : Dev nD) (i : grid0.Coords)
    (a1 : Memref sig .tc .vmem S1x512x768 .f32) (h1 : a1.IsWhole) (a2 : Memref sig .tc .vmem S1x512x128 .i32) (h2 : a2.IsWhole)
    (a3 : Memref sig .tc .vmem S1x128x768 .f32) (h3 : a3.IsWhole) (a4 : Memref sig .tc .vmem S128x768 .f32) (h4 : a4.IsWhole)
    (a5 : Memref sig .tc .vmem S512x128 .f32) (h5 : a5.IsWhole)
    (x0 : Vec Ideal S1x512x768 .f32) (x1 : Vec Ideal S1x512x128 .i32)
    (H : S4x512x768.Idx → EReal) (MK : S4x128x512.Idx → BitVec 32) (b : Fin 4)
    (hx0 : ∀ (l : Fin 512) (d : Fin 768), x0 (ix3 (0 : Fin 1) l d) = H (ix3 b l d))
    (hx1 : ∀ (l : Fin 512) (mm : Fin 128), x1 (ix3 (0 : Fin 1) l mm) = MK (ix3 b mm l))
    (u : Fin 1) (mm : Fin 128) (d : Fin 768) :
    out0_A_2 (F := Ideal) c i a1 h1 a2 h2 a3 h3 a4 h4 a5 h5 x0 x1 (ix3 u mm d) = result H MK (ix3 b mm d) := by
  rw [out_apply, result_ix3]
  unfold resultAt
  refine congrArg (Finset.univ.fold max _) (funext fun (l : Fin 512) => ?_)
  rw [hx0, hx1]

/-- The mask array as the call finds it: the mask argument transposed. -/
theorem V_mask (c : Dev nD) :
    (V m c main_v0 : S4x512x128.Idx → BitVec 32)
      = transpose S4x512x128 [0, 2, 1] (m ((c : Thread nD τ).loc main_arg1)) transposes_S4x128x512_S4x512x128_0_2_1 := by
  dsimp only [Gen.V, Gen.hostOps0]; after_results

/-- Point t's token block is row t of the token argument. -/
theorem tok_block (c : Dev nD) (t : Fin cfg0.N) (ht : t.val < 4) (l : Fin 512) (d : Fin 768) :
    (iblk m c 0 t : Vec Ideal S1x512x768 .f32) (ix3 (0 : Fin 1) l d)
      = m ((c : Thread nD τ).loc main_arg0) (ix3 (⟨t.val, ht⟩ : Fin 4) l d) := by
  obtain ⟨e0, e1, e2, -⟩ := idx_facts t
  unfold iblk
  rw [View.read_apply]
  show V m c main_arg0 _ = _
  rw [V_main_arg0 m c]
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 512 + 1 * l.val = l.val; omega
  | ⟨2, _⟩ => show win0_0.index t (2 : Fin 3) * 768 + 1 * d.val = d.val; omega

/-- Point t's mask block is row t of the mask argument, positions and mentions exchanged. -/
theorem mask_block (c : Dev nD) (t : Fin cfg0.N) (ht : t.val < 4) (l : Fin 512) (mm : Fin 128) :
    (iblk m c 1 t : Vec Ideal S1x512x128 .i32) (ix3 (0 : Fin 1) l mm)
      = m ((c : Thread nD τ).loc main_arg1) (ix3 (⟨t.val, ht⟩ : Fin 4) mm l) := by
  obtain ⟨-, -, -, e0, e1, e2, -⟩ := idx_facts t
  unfold iblk
  rw [View.read_apply]
  show V m c main_v0 _ = _
  rw [V_mask m c]
  have hi : ((cfg0.win 1).blk t).view.emb (ix3 (0 : Fin 1) l mm) = ix3 (⟨t.val, ht⟩ : Fin 4) l mm := by
    funext a; apply Fin.ext
    match a with
    | ⟨0, _⟩ => show win0_1.index t (0 : Fin 3) * 1 + 1 * 0 = t.val; omega
    | ⟨1, _⟩ => show win0_1.index t (1 : Fin 3) * 512 + 1 * l.val = l.val; omega
    | ⟨2, _⟩ => show win0_1.index t (2 : Fin 3) * 128 + 1 * mm.val = mm.val; omega
  rw [hi]
  exact transpose_ix3_021_apply _ _ (⟨t.val, ht⟩ : Fin 4) l mm

/-- What point t writes back is block t of the specified result of the two arguments. -/
theorem flushed_eq (c : Dev nD) (t : Fin cfg0.N) :
    (dats m 0 c).flushed 2 t
      = ((cfg0.win 2).blk t).view.read (Elt Ideal)
          (result (m ((c : Thread nD τ).loc main_arg0)) (m ((c : Thread nD τ).loc main_arg1))) := by
  have ht : t.val < 4 := Nat.lt_of_lt_of_le t.isLt (le_of_eq N_0)
  obtain ⟨-, -, -, -, -, -, e0, e1, e2⟩ := idx_facts t
  rw [Value.flushed2_A]
  funext j
  have hj0 : (j 0).val < 1 := (j 0).isLt
  have hj1 : (j 1).val < 128 := (j 1).isLt
  have hj2 : (j 2).val < 768 := (j 2).isLt
  show out0_A_2 (F := Ideal) c (grid0.coords t) (ms0_0 t) (hs0_0 t) (ms0_1 t) (hs0_1 t) (ms0_2 t) (hs0_2 t)
        scM0_0 (Memref.isWhole_whole _) scM0_1 (Memref.isWhole_whole _) (iblk m c 0 t) (iblk m c 1 t) j
      = result (m ((c : Thread nD τ).loc main_arg0)) (m ((c : Thread nD τ).loc main_arg1)) (((cfg0.win 2).blk t).view.emb j)
  have hj : j = ix3 (⟨(j 0).val, hj0⟩ : Fin 1) (⟨(j 1).val, hj1⟩ : Fin 128) (⟨(j 2).val, hj2⟩ : Fin 768) := by
    funext a; apply Fin.ext
    match a with
    | ⟨0, _⟩ => rfl
    | ⟨1, _⟩ => rfl
    | ⟨2, _⟩ => rfl
  refine (congrArg _ hj).trans ?_
  refine (out_block c (grid0.coords t) (ms0_0 t) (hs0_0 t) (ms0_1 t) (hs0_1 t) (ms0_2 t) (hs0_2 t)
    scM0_0 (Memref.isWhole_whole _) scM0_1 (Memref.isWhole_whole _) (iblk m c 0 t) (iblk m c 1 t)
    (m ((c : Thread nD τ).loc main_arg0)) (m ((c : Thread nD τ).loc main_arg1)) (⟨t.val, ht⟩ : Fin 4)
    (tok_block m c t ht) (mask_block m c t ht) ⟨(j 0).val, hj0⟩ ⟨(j 1).val, hj1⟩ ⟨(j 2).val, hj2⟩).trans ?_
  refine congrArg (result _ _) (funext fun a => Fin.ext ?_)
  match a with
  | ⟨0, _⟩ => show t.val = win0_2.index t (0 : Fin 3) * 1 + 1 * (j 0).val; omega
  | ⟨1, _⟩ => show (j 1).val = win0_2.index t (1 : Fin 3) * 128 + 1 * (j 1).val; omega
  | ⟨2, _⟩ => show (j 2).val = win0_2.index t (2 : Fin 3) * 768 + 1 * (j 2).val; omega

/-- An index of the result array lies in point t's block exactly when each coordinate lies in the block's range. -/
theorem mem_blk (t : Fin cfg0.N) (i : S4x128x768.Idx) :
    i ∈ ((cfg0.win 2).blk t).view.set
      ↔ ∀ a : Fin 3, win0_2.index t a * S1x128x768.size a ≤ (i a).val
          ∧ (i a).val < win0_2.index t a * S1x128x768.size a + S1x128x768.size a := by
  show i ∈ ((View.whole main_v1).slice (win0_2.rect t)).set ↔ _
  rw [View.set_slice_whole, Rect.mem_set_unit]
  exact Iff.rfl

/-- Every index of the result array lies in the block of the point named by its batch coordinate. -/
theorem covered (i : S4x128x768.Idx) :
    ∃ t : Fin cfg0.N, (cfg0.win 2).flush t = true ∧ i ∈ ((cfg0.win 2).blk t).view.set := by
  have hi0 : (i 0).val < 4 := (i 0).isLt
  have hi1 : (i 1).val < 128 := (i 1).isLt
  have hi2 : (i 2).val < 768 := (i 2).isLt
  obtain ⟨t, ht⟩ : ∃ t : Fin cfg0.N, t.val = (i 0).val := ⟨⟨(i 0).val, Nat.lt_of_lt_of_le hi0 (le_of_eq N_0.symm)⟩, rfl⟩
  obtain ⟨-, -, -, -, -, -, e0, e1, e2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 768 ≤ (i 2).val ∧ (i 2).val < win0_2.index t (2 : Fin 3) * 768 + 768; omega

/-- So the result array ends holding the specified result of the two arguments. -/
theorem final (c : Dev nD) :
    (dats m 0 c).arrAt 2 cfg0.N
      = result (m ((c : Thread nD τ).loc main_arg0)) (m ((c : Thread nD τ).loc main_arg1)) :=
  (dats m 0 c).arrAt_eq_of_cover 2 _ (fun t _ => flushed_eq m c t) covered

/-- The kernel's run, read: the result array at the specified result, the arguments unchanged. -/
theorem run : θ_run defs (onTc (τ := τ) (main (F := Ideal))) ⟨m, fun _ => 0, ρ⟩ fun r => ∀ c : Dev nD,
      r.2.mem ((c : Thread nD τ).loc main_v1)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelValue

end
-- ==== Proof.RefValue.lean ====
/-
  The reference computes the specified result.

  Its last operation is a maximum over the token axis of a rank-4 array, started from minus infinity; read at
  (b, m, d) it is the maximum over l of the summand at (b, m, l, d). That summand is h[b, l, d] plus the product of
  the mask test (one where the mask word is zero, zero elsewhere) with the large negative number: one times it is it,
  zero times it is zero, which is the penalty.
-/
import proofs.«149676_j73598559584945_2_alg».proof.Proof.Gen.ReferenceIdeal.Read
import proofs.«149676_j73598559584945_2_alg».proof.Proof.Spec
import Idealize.ShloMosaic.PureOps.Ideal.Laws
import Idealize.ShloMosaic.Lib.ValueIdx
import Idealize.ShloMosaic.Lib.Affine

noncomputable section

namespace Cert.ReferenceIdeal.RefValue

open Cert.ReferenceIdeal Cert.ReferenceIdeal.Gen Cert.ReferenceIdeal.Read Idealize.ShloMosaic Idealize.ShloMosaic.ValueIdx
open Cert.MaskedMax

/-- The mask test turned into a float and multiplied by the large negative number is the penalty. -/
theorem test_mul_eq_penalty (w : BitVec 32) :
    FloatOps.mulf (F := Ideal) (FloatOps.uitofp (F := Ideal) .f32 (IntOp.cmpi .eq w 0#32)) (FloatOps.ofBits (F := Ideal) .f32 0xF149F2CA#32)
      = penalty w := by
  unfold penalty
  by_cases hw : w = 0#32
  · rw [if_pos hw, (IntOp.cmpi_eq).2 hw]
    show ((((1#1 : BitVec 1).toNat : ℝ) : EReal)) * Ideal.ofBits .f32 0xF149F2CA#32 = _
    simp
  · have h0 : IntOp.cmpi .eq w 0#32 = 0#1 := by
      have h := (IntOp.cmpi_eq (x := w) (y := 0#32)).not.2 hw
      generalize IntOp.cmpi .eq w 0#32 = c at h
      revert h; revert c; decide
    rw [if_neg hw, h0]
    show ((((0#1 : BitVec 1).toNat : ℝ) : EReal)) * Ideal.ofBits .f32 0xF149F2CA#32 = _
    simp [Ideal.ofBits, Ideal.ieee]

/-- The reference's result array is the specified function of its two arguments. -/
theorem ref_eq (x0 : (⟨S4x512x768, .f32⟩ : BufTy).Contents (Elt Ideal)) (x1 : (⟨S4x128x512, .i32⟩ : BufTy).Contents (Elt Ideal)) :
    val_main_v10 (F := Ideal) x0 x1 = result x0 x1 := by
  funext j
  obtain ⟨b, m, d, rfl⟩ : ∃ (b : Fin 4) (m : Fin 128) (d : Fin 768), j = ix3 b m d := ⟨j 0, j 1, j 2, eq_ix3 j⟩
  rw [result_ix3]
  unfold val_main_v10 resultAt
  have hR : S4x128x512x768.Reduces [2] S4x128x768 := by decide
  rw [Host.reduce_eq_fold_single _ _ _ reducesTo_S4x128x512x768_S4x128x768_d2 hR h_S_ (ix3 b m d)]
  refine congrArg (Finset.univ.fold max _) (funext fun (l : Fin 512) => ?_)
  have hl : hR.lift (ix3 b m d) l = ix4 b m l d := by
    funext a; apply Fin.ext
    match a with
    | ⟨0, _⟩ => rfl
    | ⟨1, _⟩ => rfl
    | ⟨2, _⟩ => rfl
    | ⟨3, _⟩ => rfl
  show val_main_v9 (F := Ideal) x0 x1 (hR.lift (ix3 b m d) l) = _
  rw [hl, val_main_v9_apply, val_main_v7_apply, val_main_v5_apply, val_main_v8_apply, val_main_v6_apply,
    val_main_v4_apply, val_main_v2_apply, val_main_v1_apply, val_main_v3_apply, val_main_cst_apply,
    val_main_v0_apply, val_main_c_apply]
  have e0 : idx_main_v5 (idx_main_v7 (ix4 b m l d)) = ix3 b l d := by
    funext a; apply Fin.ext
    match a with
    | ⟨0, _⟩ => rfl
    | ⟨1, _⟩ => rfl
    | ⟨2, _⟩ => rfl
  have e1 : idx_main_v6 (idx_main_v8 (ix4 b m l d)) = ix3 b m l := by
    funext a; apply Fin.ext
    match a with
    | ⟨0, _⟩ => rfl
    | ⟨1, _⟩ => rfl
    | ⟨2, _⟩ => rfl
  rw [e0, e1, test_mul_eq_penalty]
  rfl

end Cert.ReferenceIdeal.RefValue

end
-- ==== Proof.lean ====
/-
  A masked maximum over token positions: the tiled kernel and the plain reference compute the same array.

  Inputs: h, a float array [4, 512, 768] (batch, position, feature), and mask, an integer array [4, 128, 512] (batch,
  mention, position). Result [4, 128, 768]: at (b, m, d) the maximum over positions l of h[b, l, d] + p(mask[b, m, l]),
  where p is a fixed large negative number at a zero mask word and zero elsewhere, the maximum starting from minus
  infinity.

  The reference forms the whole rank-4 array of summands and reduces it along the position axis; it writes the penalty as
  the mask test (one or zero) times the large negative number, which over the extended reals is the penalty itself. The
  kernel takes one batch per grid point, transposes the mask beforehand, and in 64 trips of eight positions each folds
  the eight-row maxima into a running maximum started from minus infinity. Over the extended reals max is associative
  and commutative, so the running maximum after all trips is the maximum over all 512 positions. No finiteness of the
  inputs is used: both sides add the same two numbers in the same order before taking maxima.

  The three frames are the generated ones (the reference's is its generated run with the result dropped); the ideal pass
  rewrote nothing, so the kernel's idealization is its own text.
-/
import proofs.«149676_j73598559584945_2_alg».proof.Defs
import proofs.«149676_j73598559584945_2_alg».proof.Proof.Gen.Kernel
import proofs.«149676_j73598559584945_2_alg».proof.Proof.Gen.Kernel.Skeleton
import proofs.«149676_j73598559584945_2_alg».proof.Proof.Gen.Kernel.Loops
import proofs.«149676_j73598559584945_2_alg».proof.Proof.Gen.Kernel.Launch
import proofs.«149676_j73598559584945_2_alg».proof.Proof.Gen.Kernel.Points
import proofs.«149676_j73598559584945_2_alg».proof.Proof.Gen.Kernel.Frame
import proofs.«149676_j73598559584945_2_alg».proof.Proof.Gen.KernelIdeal
import proofs.«149676_j73598559584945_2_alg».proof.Proof.Gen.KernelIdeal.Skeleton
import proofs.«149676_j73598559584945_2_alg».proof.Proof.Gen.KernelIdeal.Loops
import proofs.«149676_j73598559584945_2_alg».proof.Proof.Gen.KernelIdeal.Launch
import proofs.«149676_j73598559584945_2_alg».proof.Proof.Gen.KernelIdeal.Points
import proofs.«149676_j73598559584945_2_alg».proof.Proof.Gen.KernelIdeal.Frame
import proofs.«149676_j73598559584945_2_alg».proof.Proof.Gen.ReferenceIdeal
import proofs.«149676_j73598559584945_2_alg».proof.Proof.Gen.Pre_finite_inputs
import proofs.«149676_j73598559584945_2_alg».proof.Proof.Gen.KernelIdeal.Value
import proofs.«149676_j73598559584945_2_alg».proof.Proof.Gen.ReferenceIdeal.Run
import proofs.«149676_j73598559584945_2_alg».proof.Proof.Gen.ReferenceIdeal.Read
import proofs.«149676_j73598559584945_2_alg».proof.Proof.KernelValue
import proofs.«149676_j73598559584945_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories agreeing on the two arguments, both programs end with the specified result of those arguments. -/
theorem algebraic : Cert.algebraic_KernelIdeal_ReferenceIdeal := by
  intro m ρ m' ρ' _ hagree
  refine ⟨fun c => Cert.MaskedMax.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
